-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S1024x21 : Shape := ⟨2, ![1024, 21]⟩
abbrev S21 : Shape := ⟨1, ![21]⟩
abbrev S1024x84 : Shape := ⟨2, ![1024, 84]⟩
abbrev S84 : Shape := ⟨1, ![84]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S1024x21 : S_.BroadcastsInDim S1024x21 (![] : Fin 0 → Fin S1024x21.rank)
  reducesTo_S1024x21_S_d0_1 : S1024x21.ReducesTo [0, 1] S_
  bcast_S_S21 : S_.BroadcastsInDim S21 (![] : Fin 0 → Fin S21.rank)
  reducesTo_S21_S_d0 : S21.ReducesTo [0] S_
  bcast_S_S1024x84 : S_.BroadcastsInDim S1024x84 (![] : Fin 0 → Fin S1024x84.rank)
  reducesTo_S1024x84_S_d0_1 : S1024x84.ReducesTo [0, 1] S_
  bcast_S_S84 : S_.BroadcastsInDim S84 (![] : Fin 0 → Fin S84.rank)
  reducesTo_S84_S_d0 : S84.ReducesTo [0] S_

variable [Facts]

def fn_part1 {F : FTy → Type} [FloatOps F] (main_arg4 : FVec F S84 .f32) (main_v13 : IVec S_ 1) (main_v16 : IVec S1024x84 1) : IVec S_ 1 :=
  let main_c_5 : IVec S_ 1 := constantI S_ 1 1#1
  let main_v17 : IVec S_ 1 := (fun x v => Host.reduce IntOp.andi x v reducesTo_S1024x84_S_d0_1 h_S_) main_v16 main_c_5
  let main_v18 : IVec S_ 1 := andi main_v13 main_v17
  let main_v19 : FVec F S84 .f32 := Host.absf main_arg4
  let main_cst_6 : FVec F S_ .f32 := constant S_ .f32 0x7F800000#32
  let main_v20 : FVec F S84 .f32 := broadcastInDim S84 ![] bcast_S_S84 main_cst_6
  let main_v21 : IVec S84 1 := cmpf .olt main_v19 main_v20
  let main_c_7 : IVec S_ 1 := constantI S_ 1 1#1
  let main_v22 : IVec S_ 1 := (fun x v => Host.reduce IntOp.andi x v reducesTo_S84_S_d0 h_S_) main_v21 main_c_7
  let main_v23 : IVec S_ 1 := andi main_v18 main_v22
  main_v23

def fn {F : FTy → Type} [FloatOps F] (main_arg0 : FVec F S131072x1024 .f32) (main_arg1 : FVec F S1024x21 .f32) (main_arg2 : FVec F S21 .f32) (main_arg3 : FVec F S1024x84 .f32) (main_arg4 : FVec F S84 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S1024x21 .f32 := Host.absf main_arg1
  let main_cst_0 : FVec F S_ .f32 := constant S_ .f32 0x7F800000#32
  let main_v5 : FVec F S1024x21 .f32 := broadcastInDim S1024x21 ![] bcast_S_S1024x21 main_cst_0
  let main_v6 : IVec S1024x21 1 := cmpf .olt main_v4 main_v5
  let main_c_1 : IVec S_ 1 := constantI S_ 1 1#1
  let main_v7 : IVec S_ 1 := (fun x v => Host.reduce IntOp.andi x v reducesTo_S1024x21_S_d0_1 h_S_) main_v6 main_c_1
  let main_v8 : IVec S_ 1 := andi main_v3 main_v7
  let main_v9 : FVec F S21 .f32 := Host.absf main_arg2
  let main_cst_2 : FVec F S_ .f32 := constant S_ .f32 0x7F800000#32
  let main_v10 : FVec F S21 .f32 := broadcastInDim S21 ![] bcast_S_S21 main_cst_2
  let main_v11 : IVec S21 1 := cmpf .olt main_v9 main_v10
  let main_c_3 : IVec S_ 1 := constantI S_ 1 1#1
  let main_v12 : IVec S_ 1 := (fun x v => Host.reduce IntOp.andi x v reducesTo_S21_S_d0 h_S_) main_v11 main_c_3
  let main_v13 : IVec S_ 1 := andi main_v8 main_v12
  let main_v14 : FVec F S1024x84 .f32 := Host.absf main_arg3
  let main_cst_4 : FVec F S_ .f32 := constant S_ .f32 0x7F800000#32
  let main_v15 : FVec F S1024x84 .f32 := broadcastInDim S1024x84 ![] bcast_S_S1024x84 main_cst_4
  let main_v16 : IVec S1024x84 1 := cmpf .olt main_v14 main_v15
  fn_part1 (F := F) main_arg4 main_v13 main_v16
-- ==== Kernel.lean ====
abbrev S131072x1024 : Shape := ⟨2, ![131072, 1024]⟩
abbrev S1024x21 : Shape := ⟨2, ![1024, 21]⟩
abbrev S21 : Shape := ⟨1, ![21]⟩
abbrev S1024x84 : Shape := ⟨2, ![1024, 84]⟩
abbrev S84 : Shape := ⟨1, ![84]⟩
abbrev S1024x105 : Shape := ⟨2, ![1024, 105]⟩
abbrev S105 : Shape := ⟨1, ![105]⟩
abbrev S1x105 : Shape := ⟨2, ![1, 105]⟩
abbrev S131072x21 : Shape := ⟨2, ![131072, 21]⟩
abbrev S131072x84 : Shape := ⟨2, ![131072, 84]⟩
abbrev S2048x1024 : Shape := ⟨2, ![2048, 1024]⟩
abbrev S2048x21 : Shape := ⟨2, ![2048, 21]⟩
abbrev S2048x84 : Shape := ⟨2, ![2048, 84]⟩
abbrev S2048x105 : Shape := ⟨2, ![2048, 105]⟩
abbrev S131072x21x4 : Shape := ⟨3, ![131072, 21, 4]⟩

abbrev nBuf : Space → Nat
  | .hbm => 12
  | .vmem => 8
  | .smem => 0
  | _ => 0

abbrev bufTy : (tb : Table) → Fin (tcTables nBuf tb) → BufTy
  | .hbm, ⟨0, _⟩ => ⟨S131072x1024, .f32⟩
  | .hbm, ⟨1, _⟩ => ⟨S1024x21, .f32⟩
  | .hbm, ⟨2, _⟩ => ⟨S21, .f32⟩
  | .hbm, ⟨3, _⟩ => ⟨S1024x84, .f32⟩
  | .hbm, ⟨4, _⟩ => ⟨S84, .f32⟩
  | .hbm, ⟨5, _⟩ => ⟨S1024x105, .f32⟩
  | .hbm, ⟨6, _⟩ => ⟨S1024x105, .bf16⟩
  | .hbm, ⟨7, _⟩ => ⟨S105, .f32⟩
  | .hbm, ⟨8, _⟩ => ⟨S1x105, .f32⟩
  | .hbm, ⟨9, _⟩ => ⟨S131072x21, .f32⟩
  | .hbm, ⟨10, _⟩ => ⟨S131072x84, .f32⟩
  | .hbm, ⟨11, _⟩ => ⟨S131072x21x4, .f32⟩
  | .local _ .vmem, ⟨0, _⟩ => ⟨S2048x1024, .f32⟩
  | .local _ .vmem, ⟨1, _⟩ => ⟨S2048x1024, .f32⟩
  | .local _ .vmem, ⟨2, _⟩ => ⟨S1024x105, .bf16⟩
  | .local _ .vmem, ⟨3, _⟩ => ⟨S1x105, .f32⟩
  | .local _ .vmem, ⟨4, _⟩ => ⟨S2048x21, .f32⟩
  | .local _ .vmem, ⟨5, _⟩ => ⟨S2048x21, .f32⟩
  | .local _ .vmem, ⟨6, _⟩ => ⟨S2048x84, .f32⟩
  | .local _ .vmem, ⟨7, _⟩ => ⟨S2048x84, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x105 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x105 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x84 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S1024x21_S1024x84_S1024x105_d1 : Shape.Concatenates [S1024x21, S1024x84] S1024x105 1
  bitsLt_bf16_f32 : FTy.bits .bf16 < FTy.bits .f32
  concatenates_S21_S84_S105_d0 : Shape.Concatenates [S21, S84] S105 0
  shapeCasts_S105_S1x105 : S105.ShapeCasts S1x105
  inb_S2048x1024_S2048x1024_0_0 : ∀ a, (![0, 0] : Fin 2 → Nat) a + S2048x1024.size a ≤ S2048x1024.size a
  h_S2048x1024 : 0 < S2048x1024.numel
  inb_S1024x105_S1024x105_0_0 : ∀ a, (![0, 0] : Fin 2 → Nat) a + S1024x105.size a ≤ S1024x105.size a
  h_S1024x105 : 0 < S1024x105.numel
  shapeCasts_S1024x105_S1024x105 : S1024x105.ShapeCasts S1024x105
  inb_S1x105_S1x105_0_0 : ∀ a, (![0, 0] : Fin 2 → Nat) a + S1x105.size a ≤ S1x105.size a
  h_S1x105 : 0 < S1x105.numel
  shapeCasts_S1x105_S1x105 : S1x105.ShapeCasts S1x105
  broadcasts_S1x105_S2048x105 : S1x105.Broadcasts S2048x105
  slices_S2048x105_o0_0_S2048x21 : S2048x105.Slices ![0, 0] S2048x21
  inb_S2048x21_S2048x21_0_0 : ∀ a, (![0, 0] : Fin 2 → Nat) a + S2048x21.size a ≤ S2048x21.size a
  h_S2048x21 : 0 < S2048x21.numel
  slices_S2048x105_o0_21_S2048x84 : S2048x105.Slices ![0, 21] S2048x84
  inb_S2048x84_S2048x84_0_0 : ∀ a, (![0, 0] : Fin 2 → Nat) a + S2048x84.size a ≤ S2048x84.size a
  h_S2048x84 : 0 < S2048x84.numel
  shapeCasts_S131072x84_S131072x21x4 : S131072x84.ShapeCasts S131072x21x4
  dot_S2048x1024_S1024x105_S2048x105_1_0_0_1_n_n_wf : DotDims.WF S2048x1024 S1024x105 S2048x105 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x105.size a ≤ S1024x105.size a
  hwx0_1 : ∀ i : grid0.Coords, EltTy.bits .bf16 = 32 ∨ (Rect.block (s := S1024x105) S1024x105.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x105.size a ≤ S1x105.size a
  hwx0_2 : ∀ i : grid0.Coords, EltTy.bits .f32 = 32 ∨ (Rect.block (s := S1x105) S1x105.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x21.size a ≤ S131072x21.size a
  hwx0_3 : ∀ i : grid0.Coords, EltTy.bits .f32 = 32 ∨ (Rect.block (s := S131072x21) S2048x21.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x84.size a ≤ S131072x84.size a
  hwx0_4 : ∀ i : grid0.Coords, EltTy.bits .f32 = 32 ∨ (Rect.block (s := S131072x84) S2048x84.size (cc0_transform_4 i) (hinb0_4 i)).WholeWords (EltTy.packing .f32)

variable [Facts₀]

def dot_S2048x1024_S1024x105_S2048x105_1_0_0_1_n_n : DotDims S2048x1024 S1024x105 S2048x105 where
  lhsContracting := [1]
  rhsContracting := [0]
  lhsNonContracting := [0]
  rhsNonContracting := [1]
  lhsBatch := []
  rhsBatch := []
  wf := dot_S2048x1024_S1024x105_S2048x105_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x105.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x105.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S2048x21.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S2048x84.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S1024x21 : Shape := ⟨2, ![1024, 21]⟩
abbrev S21 : Shape := ⟨1, ![21]⟩
abbrev S1024x84 : Shape := ⟨2, ![1024, 84]⟩
abbrev S84 : Shape := ⟨1, ![84]⟩
abbrev S131072x21 : Shape := ⟨2, ![131072, 21]⟩
abbrev S1x21 : Shape := ⟨2, ![1, 21]⟩
abbrev S131072x84 : Shape := ⟨2, ![131072, 84]⟩
abbrev S1x84 : Shape := ⟨2, ![1, 84]⟩
abbrev S131072x21x4 : Shape := ⟨3, ![131072, 21, 4]⟩

abbrev nBuf : Space → Nat
  | .hbm => 14
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S1024x21, .f32⟩
  | .hbm, ⟨2, _⟩ => ⟨S21, .f32⟩
  | .hbm, ⟨3, _⟩ => ⟨S1024x84, .f32⟩
  | .hbm, ⟨4, _⟩ => ⟨S84, .f32⟩
  | .hbm, ⟨5, _⟩ => ⟨S131072x21, .f32⟩
  | .hbm, ⟨6, _⟩ => ⟨S1x21, .f32⟩
  | .hbm, ⟨7, _⟩ => ⟨S131072x21, .f32⟩
  | .hbm, ⟨8, _⟩ => ⟨S131072x21, .f32⟩
  | .hbm, ⟨9, _⟩ => ⟨S131072x84, .f32⟩
  | .hbm, ⟨10, _⟩ => ⟨S1x84, .f32⟩
  | .hbm, ⟨11, _⟩ => ⟨S131072x84, .f32⟩
  | .hbm, ⟨12, _⟩ => ⟨S131072x84, .f32⟩
  | .hbm, ⟨13, _⟩ => ⟨S131072x21x4, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S21_S1x21_1 : S21.BroadcastsInDim S1x21 (![1] : Fin 1 → Fin S1x21.rank)
  bcast_S1x21_S131072x21_0_1 : S1x21.BroadcastsInDim S131072x21 (![0, 1] : Fin 2 → Fin S131072x21.rank)
  bcast_S84_S1x84_1 : S84.BroadcastsInDim S1x84 (![1] : Fin 1 → Fin S1x84.rank)
  bcast_S1x84_S131072x84_0_1 : S1x84.BroadcastsInDim S131072x84 (![0, 1] : Fin 2 → Fin S131072x84.rank)
  shapeCasts_S131072x84_S131072x21x4 : S131072x84.ShapeCasts S131072x21x4
  dot_S131072x1024_S1024x21_S131072x21_1_0_0_1_n_n_wf : DotDims.WF S131072x1024 S1024x21 S131072x21 [1] [0] [0] [1] [] []
  dot_S131072x1024_S1024x84_S131072x84_1_0_0_1_n_n_wf : DotDims.WF S131072x1024 S1024x84 S131072x84 [1] [0] [0] [1] [] []

variable [Facts₀]

def dot_S131072x1024_S1024x21_S131072x21_1_0_0_1_n_n : DotDims S131072x1024 S1024x21 S131072x21 where
  lhsContracting := [1]
  rhsContracting := [0]
  lhsNonContracting := [0]
  rhsNonContracting := [1]
  lhsBatch := []
  rhsBatch := []
  wf := dot_S131072x1024_S1024x21_S131072x21_1_0_0_1_n_n_wf
def dot_S131072x1024_S1024x84_S131072x84_1_0_0_1_n_n : DotDims S131072x1024 S1024x84 S131072x84 where
  lhsContracting := [1]
  rhsContracting := [0]
  lhsNonContracting := [0]
  rhsNonContracting := [1]
  lhsBatch := []
  rhsBatch := []
  wf := dot_S131072x1024_S1024x84_S131072x84_1_0_0_1_n_n_wf

class Facts : Prop extends Facts₀ where

variable [Facts]
-- ==== Proof.Heads.lean ====
/-
  The two linear heads, as functions of the argument arrays.

  For features X [131072 × 1024], weights W [1024 × n] and a bias b [n], a head is X·W + b: its entry (r, j) is
      Σ_k X[r, k] · W[k, j]  +  b[j]
  over the extended reals. The class head has n = 21 columns and the box head n = 84. The box head is returned
  re-laid as [131072 × 21 × 4]: the same entries at the same row-major positions.
-/
import Idealize.ShloMosaic.PureOps.Ideal
import Idealize.ShloMosaic.Lib.ValueIdx

noncomputable section

open scoped BigOperators

namespace Cert.Heads

open Idealize.ShloMosaic Idealize.ShloMosaic.ValueIdx

/-- Entry (r, j) of the class head: row r of the features against column j of the class weights, plus the bias. -/
def clsAt (X : FVec Ideal ⟨2, ![131072, 1024]⟩ .f32) (W : FVec Ideal ⟨2, ![1024, 21]⟩ .f32) (b : FVec Ideal ⟨1, ![21]⟩ .f32)
    (r : Fin 131072) (j : Fin 21) : Ideal .f32 :=
  (∑ k : Fin 1024, X (ix2 r k) * W (ix2 k j)) + b (ix1 j)

/-- The class head, X·W + b with 21 columns. -/
def cls (X : FVec Ideal ⟨2, ![131072, 1024]⟩ .f32) (W : FVec Ideal ⟨2, ![1024, 21]⟩ .f32) (b : FVec Ideal ⟨1, ![21]⟩ .f32) :
    FVec Ideal ⟨2, ![131072, 21]⟩ .f32 :=
  fun i => clsAt X W b ⟨(i 0).val, (i 0).isLt⟩ ⟨(i 1).val, (i 1).isLt⟩

/-- Entry (r, j) of the box head: row r of the features against column j of the box weights, plus the bias. -/
def boxAt (X : FVec Ideal ⟨2, ![131072, 1024]⟩ .f32) (W : FVec Ideal ⟨2, ![1024, 84]⟩ .f32) (b : FVec Ideal ⟨1, ![84]⟩ .f32)
    (r : Fin 131072) (j : Fin 84) : Ideal .f32 :=
  (∑ k : Fin 1024, X (ix2 r k) * W (ix2 k j)) + b (ix1 j)

/-- The box head, X·W + b with 84 columns. -/
def box (X : FVec Ideal ⟨2, ![131072, 1024]⟩ .f32) (W : FVec Ideal ⟨2, ![1024, 84]⟩ .f32) (b : FVec Ideal ⟨1, ![84]⟩ .f32) :
    FVec Ideal ⟨2, ![131072, 84]⟩ .f32 :=
  fun i => boxAt X W b ⟨(i 0).val, (i 0).isLt⟩ ⟨(i 1).val, (i 1).isLt⟩

/-- The box head re-laid as four numbers per class: [131072 × 84] read as [131072 × 21 × 4]. -/
def boxes (X : FVec Ideal ⟨2, ![131072, 1024]⟩ .f32) (W : FVec Ideal ⟨2, ![1024, 84]⟩ .f32) (b : FVec Ideal ⟨1, ![84]⟩ .f32)
    (h : (⟨2, ![131072, 84]⟩ : Shape).ShapeCasts ⟨3, ![131072, 21, 4]⟩) : FVec Ideal ⟨3, ![131072, 21, 4]⟩ .f32 :=
  shapeCast ⟨3, ![131072, 21, 4]⟩ (box X W b) h

theorem cls_apply (X : FVec Ideal ⟨2, ![131072, 1024]⟩ .f32) (W : FVec Ideal ⟨2, ![1024, 21]⟩ .f32) (b : FVec Ideal ⟨1, ![21]⟩ .f32)
    (r : Fin 131072) (j : Fin 21) : cls X W b (ix2 r j) = clsAt X W b r j := rfl

theorem box_apply (X : FVec Ideal ⟨2, ![131072, 1024]⟩ .f32) (W : FVec Ideal ⟨2, ![1024, 84]⟩ .f32) (b : FVec Ideal ⟨1, ![84]⟩ .f32)
    (r : Fin 131072) (j : Fin 84) : box X W b (ix2 r j) = boxAt X W b r j := rfl

end Cert.Heads

end
-- ==== Proof.Fused.lean ====
/-
  The fused operands read at an entry.

  The two heads' weights are laid side by side along the columns, [1024 × 21] then [1024 × 84], into one
  [1024 × 105] matrix: its column j is the class weights' column j for j < 21 and the box weights' column j − 21 from
  there on. The two biases are laid end to end the same way, [21] then [84], and the result is read as one row
  [1 × 105].
-/
import Idealize.ShloMosaic.Lib.Pipeline.Value
import Idealize.ShloMosaic.Lib.ValueIdx
import Idealize.ShloMosaic.Lib.ValueLayout

noncomputable section

namespace Cert.Fused

open Idealize.ShloMosaic Idealize.ShloMosaic.ValueIdx

variable {α : Type}

/-- A column below 21 of the side-by-side weights is the class weights' column. -/
theorem weights_left (Wc : (⟨2, ![1024, 21]⟩ : Shape).Idx → α) (Wt : (⟨2, ![1024, 84]⟩ : Shape).Idx → α)
    (h : Shape.Concatenates [(⟨2, ![1024, 21]⟩ : Shape), ⟨2, ![1024, 84]⟩] ⟨2, ![1024, 105]⟩ 1) (k : Fin 1024) (j : Fin 21)
    (j' : Fin 105) (hj : j'.val = j.val) :
    concatenate ⟨2, ![1024, 105]⟩ 1 [⟨⟨2, ![1024, 21]⟩, Wc⟩, ⟨⟨2, ![1024, 84]⟩, Wt⟩] h (ix2 k j') = Wc (ix2 k j) :=
  concatenate_pair_apply_left 1 Wc Wt h (ix2 k j') rfl (ix2 k j) (fun b => by
    match b with
    | ⟨0, _⟩ => rfl
    | ⟨1, _⟩ => exact hj.symm)

/-- A column from 21 on of the side-by-side weights is the box weights' column 21 to the left. -/
theorem weights_right (Wc : (⟨2, ![1024, 21]⟩ : Shape).Idx → α) (Wt : (⟨2, ![1024, 84]⟩ : Shape).Idx → α)
    (h : Shape.Concatenates [(⟨2, ![1024, 21]⟩ : Shape), ⟨2, ![1024, 84]⟩] ⟨2, ![1024, 105]⟩ 1) (k : Fin 1024) (j : Fin 84)
    (j' : Fin 105) (hj : j'.val = 21 + j.val) :
    concatenate ⟨2, ![1024, 105]⟩ 1 [⟨⟨2, ![1024, 21]⟩, Wc⟩, ⟨⟨2, ![1024, 84]⟩, Wt⟩] h (ix2 k j') = Wt (ix2 k j) :=
  concatenate_pair_apply_right 1 Wc Wt h (ix2 k j') rfl rfl (ix2 k j)
    (fun b hb => by
      match b with
      | ⟨0, _⟩ => rfl
      | ⟨1, _⟩ => exact absurd rfl hb)
    (by show j.val + 21 = j'.val; omega)

/-- An entry below 21 of the end-to-end biases, read as a row, is the class bias's entry. -/
theorem bias_left (bc : (⟨1, ![21]⟩ : Shape).Idx → α) (bt : (⟨1, ![84]⟩ : Shape).Idx → α)
    (h : Shape.Concatenates [(⟨1, ![21]⟩ : Shape), ⟨1, ![84]⟩] ⟨1, ![105]⟩ 0)
    (h' : (⟨1, ![105]⟩ : Shape).ShapeCasts ⟨2, ![1, 105]⟩) (j : Fin 21) (j' : Fin 105) (hj : j'.val = j.val) :
    shapeCast ⟨2, ![1, 105]⟩ (concatenate ⟨1, ![105]⟩ 0 [⟨⟨1, ![21]⟩, bc⟩, ⟨⟨1, ![84]⟩, bt⟩] h) h' (ix2 (0 : Fin 1) j') = bc (ix1 j) :=
  (shapeCast_a_1a_apply _ h' 0 j').trans
    (concatenate_pair_apply_left 0 bc bt h (ix1 j') rfl (ix1 j) (fun b => by
      match b with
      | ⟨0, _⟩ => exact hj.symm))

/-- An entry from 21 on of the end-to-end biases, read as a row, is the box bias's entry 21 to the left. -/
theorem bias_right (bc : (⟨1, ![21]⟩ : Shape).Idx → α) (bt : (⟨1, ![84]⟩ : Shape).Idx → α)
    (h : Shape.Concatenates [(⟨1, ![21]⟩ : Shape), ⟨1, ![84]⟩] ⟨1, ![105]⟩ 0)
    (h' : (⟨1, ![105]⟩ : Shape).ShapeCasts ⟨2, ![1, 105]⟩) (j : Fin 84) (j' : Fin 105) (hj : j'.val = 21 + j.val) :
    shapeCast ⟨2, ![1, 105]⟩ (concatenate ⟨1, ![105]⟩ 0 [⟨⟨1, ![21]⟩, bc⟩, ⟨⟨1, ![84]⟩, bt⟩] h) h' (ix2 (0 : Fin 1) j') = bt (ix1 j) :=
  (shapeCast_a_1a_apply _ h' 0 j').trans
    (concatenate_pair_apply_right 0 bc bt h (ix1 j') rfl rfl (ix1 j)
      (fun b hb => by
        match b with
        | ⟨0, _⟩ => exact absurd rfl hb)
      (by show j.val + 21 = j'.val; omega))

end Cert.Fused

end
-- ==== Proof.LibPlainDot.lean ====
/-
  A matrix product with ONE contracted axis, read at an output entry over the extended reals.

  For a product of an [A, K] array by a [K, B] array whose dimension numbers send output entry (p, c) and contraction
  position k to the operand entries (p, k) and (k, c), the accelerator's matmul into a zero accumulator and the host's
  dot_general are both the plain sum  Σ_k lhs[p, k] · rhs[k, c]  — no rounding and no order of summation is left at the
  exact instance. The four coordinate facts are taken as hypotheses, so that one statement serves every such record.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {A K B : Nat} {φ₁ φ₂ : FTy}

/-- The contraction sum re-indexed by the one contracted coordinate, the operand entries written out. -/
theorem contr_sum (d : DotDims ⟨2, ![A, K]⟩ ⟨2, ![K, B]⟩ ⟨2, ![A, B]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    (∑ q : d.contr.Idx, lhs (d.lhsIdx (ix2 p c) q) * rhs (d.rhsIdx (ix2 p c) q))
      = ∑ k : Fin K, lhs (ix2 p k) * rhs (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The matmul into the zero accumulator at entry (p, c) is Σ_k lhs[p, k] · rhs[k, c]. -/
theorem matmul_zero_apply (d : DotDims ⟨2, ![A, K]⟩ ⟨2, ![K, B]⟩ ⟨2, ![A, B]⟩) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.matmul d prec lhs rhs (constant (F := Ideal) ⟨2, ![A, B]⟩ .f32 0x00000000#32) (ix2 p c)
      = ∑ k : Fin K, lhs (ix2 p k) * rhs (ix2 k c) :=
  (Ideal.matmul_constant_zero_apply d prec lhs rhs (ix2 p c)).trans (contr_sum d hr hs hl0 hl1 hr0 hr1 lhs rhs p c)

/-- The host's dot_general at entry (p, c) is the same sum. -/
theorem dotGeneral_apply (d : DotDims ⟨2, ![A, K]⟩ ⟨2, ![K, B]⟩ ⟨2, ![A, B]⟩) (prec : Option ContractPrecision)
    (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.dotGeneral d prec sched lhs rhs (ix2 p c) = ∑ k : Fin K, lhs (ix2 p k) * rhs (ix2 k c) :=
  (Ideal.dotGeneral_apply d prec sched lhs rhs (ix2 p c)).trans (contr_sum d hr hs hl0 hl1 hr0 hr1 lhs rhs p c)

end Idealize.ShloMosaic.PlainDot

end
-- ==== Proof.Payload.lean ====
/-
  What the kernel's body computes from its three blocks, entry by entry.

  From a block x0 of 2048 feature rows, the fused weights x1 [1024 × 105] and the fused bias row x2 [1 × 105], the body
  forms  r = x0 · x1 + x2  (the product into a zero accumulator, the bias row added to every row) and stores the first
  21 columns of r as the class block and the remaining 84 as the box block. So
      class block (p, q) = Σ_k x0[p, k] · x1[k, q]      + x2[0, q]        (q < 21)
      box   block (p, q) = Σ_k x0[p, k] · x1[k, 21 + q] + x2[0, 21 + q]   (q < 84).
  Narrowing the features to the 16-bit format changes nothing over the extended reals.
-/
import proofs.«168700_j50964081935328_2_alg».proof.Proof.Gen.KernelIdeal.Skeleton
import proofs.«168700_j50964081935328_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The product's dimension numbers: output entry (p, c) and position k meet the operands at (p, k) and (k, c) -/

theorem lhs_row (i : S2048x105.Idx) (q : dot_S2048x1024_S1024x105_S2048x105_1_0_0_1_n_n.contr.Idx) :
    (dot_S2048x1024_S1024x105_S2048x105_1_0_0_1_n_n.lhsIdx i q 0).val = (i 0).val := by
  unfold DotDims.lhsIdx
  rw [dif_neg (show ¬(0 : Fin S2048x1024.rank) ∈ dot_S2048x1024_S1024x105_S2048x105_1_0_0_1_n_n.lhsBatch by decide),
    dif_pos (show (0 : Fin S2048x1024.rank) ∈ dot_S2048x1024_S1024x105_S2048x105_1_0_0_1_n_n.lhsNonContracting by decide)]
  rfl

theorem lhs_col (i : S2048x105.Idx) (q : dot_S2048x1024_S1024x105_S2048x105_1_0_0_1_n_n.contr.Idx) :
    (dot_S2048x1024_S1024x105_S2048x105_1_0_0_1_n_n.lhsIdx i q 1).val = (q ⟨0, by decide⟩).val :=
  dot_S2048x1024_S1024x105_S2048x105_1_0_0_1_n_n.lhsIdx_val_of_single rfl i q

theorem rhs_row (i : S2048x105.Idx) (q : dot_S2048x1024_S1024x105_S2048x105_1_0_0_1_n_n.contr.Idx) :
    (dot_S2048x1024_S1024x105_S2048x105_1_0_0_1_n_n.rhsIdx i q 0).val = (q ⟨0, by decide⟩).val :=
  dot_S2048x1024_S1024x105_S2048x105_1_0_0_1_n_n.rhsIdx_val_of_single rfl i q

theorem rhs_col (i : S2048x105.Idx) (q : dot_S2048x1024_S1024x105_S2048x105_1_0_0_1_n_n.contr.Idx) :
    (dot_S2048x1024_S1024x105_S2048x105_1_0_0_1_n_n.rhsIdx i q 1).val = (i 1).val := by
  unfold DotDims.rhsIdx
  rw [dif_neg (show ¬(1 : Fin S1024x105.rank) ∈ dot_S2048x1024_S1024x105_S2048x105_1_0_0_1_n_n.rhsBatch by decide),
    dif_pos (show (1 : Fin S1024x105.rank) ∈ dot_S2048x1024_S1024x105_S2048x105_1_0_0_1_n_n.rhsNonContracting by decide)]
  rfl

/-! ## The fused result r = x0 · x1 + x2 at an entry -/

/-- Entry (p, j) of the fused result: row p of the features against column j of the fused weights, plus the fused
    bias at j. -/
theorem fused_apply (x0 : FVec Ideal S2048x1024 .f32) (x1 : FVec Ideal S1024x105 .bf16) (x2 : FVec Ideal S1x105 .f32)
    (p : Fin 2048) (j : Fin 105) :
    k0_pay1 (F := Ideal) x0 x1 x2 (ix2 p j)
      = (∑ k : Fin 1024, x0 (ix2 p k) * x1 (ix2 k j)) + x2 (ix2 (0 : Fin 1) j) := by
  unfold k0_pay1
  refine (addf_apply _ _ _).trans ?_
  refine congrArg₂ (· + ·) ?_ ?_
  · refine (PlainDot.matmul_zero_apply dot_S2048x1024_S1024x105_S2048x105_1_0_0_1_n_n none rfl rfl
      lhs_row lhs_col rhs_row rhs_col (truncf .bf16 x0 bitsLt_bf16_f32)
      (shapeCast S1024x105 x1 shapeCasts_S1024x105_S1024x105) p j).trans ?_
    refine Finset.sum_congr rfl fun k _ => ?_
    exact congrArg (x0 (ix2 p k) * ·) (congrFun (shapeCast_self x1 shapeCasts_S1024x105_S1024x105) (ix2 k j))
  · exact (broadcastTo_1b_ab_apply _ broadcasts_S1x105_S2048x105 p j).trans
      (congrFun (shapeCast_self x2 shapeCasts_S1x105_S1x105) (ix2 (0 : Fin 1) j))

/-- The class block is the first 21 columns of the fused result. -/
theorem cls_apply (x0 : FVec Ideal S2048x1024 .f32) (x1 : FVec Ideal S1024x105 .bf16) (x2 : FVec Ideal S1x105 .f32)
    (p : Fin 2048) (q : Fin 21) (j : Fin 105) (hj : j.val = q.val) :
    k0_pay2 (F := Ideal) x0 x1 x2 (ix2 p q)
      = (∑ k : Fin 1024, x0 (ix2 p k) * x1 (ix2 k j)) + x2 (ix2 (0 : Fin 1) j) := by
  unfold k0_pay2
  exact (slice2_axis1_apply 0 (k0_pay1 (F := Ideal) x0 x1 x2) slices_S2048x105_o0_0_S2048x21 p q j
    (by omega)).trans (fused_apply x0 x1 x2 p j)

/-- The box block is the 84 columns from column 21 on. -/
theorem box_apply (x0 : FVec Ideal S2048x1024 .f32) (x1 : FVec Ideal S1024x105 .bf16) (x2 : FVec Ideal S1x105 .f32)
    (p : Fin 2048) (q : Fin 84) (j : Fin 105) (hj : j.val = 21 + q.val) :
    k0_pay3 (F := Ideal) x0 x1 x2 (ix2 p q)
      = (∑ k : Fin 1024, x0 (ix2 p k) * x1 (ix2 k j)) + x2 (ix2 (0 : Fin 1) j) := by
  unfold k0_pay3
  exact (slice2_axis1_apply 21 (k0_pay1 (F := Ideal) x0 x1 x2) slices_S2048x105_o0_21_S2048x84 p q j
    hj).trans (fused_apply x0 x1 x2 p j)

end Cert.KernelIdeal.Payload

end
-- ==== Proof.Entry.lean ====
/-
  What the fused weight and bias buffers hold when the kernel's region is entered.

  Before the region the host lays the two weight matrices side by side and narrows the result to the 16-bit format,
  and lays the two biases end to end and reads them as one row. Nothing else writes those two buffers, so the
  region finds them holding exactly those terms of the argument arrays.
-/
import proofs.«168700_j50964081935328_2_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The fused weights at region entry: the two weight matrices side by side, narrowed. -/
theorem weights (c : Dev nD) :
    (V m c main_v1 : S1024x105.Idx → Elt Ideal .bf16)
      = truncf (F := Ideal) .bf16 (concatenate S1024x105 1
          [⟨S1024x21, (m ((c : Thread nD τ).loc main_arg1) : S1024x21.Idx → Elt Ideal .f32)⟩,
           ⟨S1024x84, (m ((c : Thread nD τ).loc main_arg3) : S1024x84.Idx → Elt Ideal .f32)⟩]
          concatenates_S1024x21_S1024x84_S1024x105_d1) bitsLt_bf16_f32 := by
  show StableHlo.after hostOps0 (fun b => m (c, b)) (Proc.devRef .tc main_v1) = _
  after_results <;> rfl

/-- The fused bias at region entry: the two biases end to end, read as one row. -/
theorem bias (c : Dev nD) :
    (V m c main_v3 : S1x105.Idx → Elt Ideal .f32)
      = shapeCast S1x105 (concatenate S105 0
          [⟨S21, (m ((c : Thread nD τ).loc main_arg2) : S21.Idx → Elt Ideal .f32)⟩,
           ⟨S84, (m ((c : Thread nD τ).loc main_arg4) : S84.Idx → Elt Ideal .f32)⟩]
          concatenates_S21_S84_S105_d0) shapeCasts_S105_S1x105 := by
  show StableHlo.after hostOps0 (fun b => m (c, b)) (Proc.devRef .tc main_v3) = _
  after_results <;> rfl

end Cert.KernelIdeal.Entry

end
-- ==== Proof.Blocks.lean ====
/-
  From the grid's blocks to the two result arrays.

  Grid point t works on feature rows 2048·t … 2048·t + 2047. Its feature block is those rows of the features; the
  fused weights and the fused bias are staged whole at every point. So entry (p, q) of what point t writes back to
  the class array is the class head at (2048·t + p, q), and likewise for the box array: each written block is the
  matching block of ONE whole-array function. The 64 row blocks cover all 131072 rows, hence the class array ends
  holding the class head and the box array the box head.
-/
import proofs.«168700_j50964081935328_2_alg».proof.Proof.Gen.KernelIdeal.Frame
import proofs.«168700_j50964081935328_2_alg».proof.Proof.Heads
import proofs.«168700_j50964081935328_2_alg».proof.Proof.Fused
import proofs.«168700_j50964081935328_2_alg».proof.Proof.Payload
import proofs.«168700_j50964081935328_2_alg».proof.Proof.Entry
import Idealize.ShloMosaic.Lib.Pipeline.Value
import Idealize.ShloMosaic.Lib.ValueIdx
import Idealize.ShloMosaic.PureOps.Ideal

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The argument arrays -/

/-- The features X [131072 × 1024]. -/
abbrev feats (c : Dev nD) : FVec Ideal S131072x1024 .f32 := m ((c : Thread nD τ).loc main_arg0)
/-- The class weights [1024 × 21]. -/
abbrev wCls (c : Dev nD) : FVec Ideal S1024x21 .f32 := m ((c : Thread nD τ).loc main_arg1)
/-- The class bias [21]. -/
abbrev bCls (c : Dev nD) : FVec Ideal S21 .f32 := m ((c : Thread nD τ).loc main_arg2)
/-- The box weights [1024 × 84]. -/
abbrev wBox (c : Dev nD) : FVec Ideal S1024x84 .f32 := m ((c : Thread nD τ).loc main_arg3)
/-- The box bias [84]. -/
abbrev bBox (c : Dev nD) : FVec Ideal S84 .f32 := m ((c : Thread nD τ).loc main_arg4)

theorem hz : (![0, 0] : Fin 2 → Nat) = fun _ => 0 := funext fun a => by fin_cases a <;> rfl

/-- Where each window's block sits at grid point t: the feature rows and both result rows move with t, one block of
    2048 rows per point; the fused weights and the fused bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 64 := Nat.lt_of_lt_of_eq t.isLt N_0

/-! ## The input blocks as entries of the argument arrays -/

/-- Row p of point t's feature block is row 2048·t + p of the features. -/
theorem feat_blk (c : Dev nD) (t : Fin cfg0.N) (p : Fin 2048) (k : Fin 1024) (r : Fin 131072)
    (hr : r.val = t.val * 2048 + p.val) :
    (iblk m c 0 t : S2048x1024.Idx → Elt Ideal .f32) (ix2 p k) = feats m c (ix2 r k) := by
  unfold iblk
  rw [View.read_apply]
  show V m c main_arg0 (((cfg0.win 0).blk t).view.emb (ix2 p k)) = _
  rw [V_main_arg0]
  refine congrArg (feats m c) (funext fun a => Fin.ext ?_)
  obtain ⟨e0, e1, -⟩ := idx_facts t
  match a with
  | ⟨0, _⟩ => show win0_0.index t (0 : Fin 2) * 2048 + 1 * p.val = r.val; rw [e0, hr]; omega
  | ⟨1, _⟩ => show win0_0.index t (1 : Fin 2) * 1024 + 1 * k.val = k.val; rw [e1]; omega

/-- The staged weight block is the whole fused weight buffer. -/
theorem wts_blk (c : Dev nD) (t : Fin cfg0.N) (k : Fin 1024) (j : Fin 105) :
    (iblk m c 1 t : S1024x105.Idx → Elt Ideal .bf16) (ix2 k j)
      = (V m c main_v1 : S1024x105.Idx → Elt Ideal .bf16) (ix2 k j) := by
  unfold iblk
  rw [View.read_apply]
  show V m c main_v1 (((cfg0.win 1).blk t).view.emb (ix2 k j)) = _
  refine congrArg (V m c main_v1 : S1024x105.Idx → Elt Ideal .bf16) (funext fun a => Fin.ext ?_)
  obtain ⟨-, -, e0, e1, -⟩ := idx_facts t
  match a with
  | ⟨0, _⟩ => show win0_1.index t (0 : Fin 2) * 1024 + 1 * k.val = k.val; rw [e0]; omega
  | ⟨1, _⟩ => show win0_1.index t (1 : Fin 2) * 105 + 1 * j.val = j.val; rw [e1]; omega

/-- The staged bias block is the whole fused bias row. -/
theorem bias_blk (c : Dev nD) (t : Fin cfg0.N) (j : Fin 105) :
    (iblk m c 2 t : S1x105.Idx → Elt Ideal .f32) (ix2 (0 : Fin 1) j)
      = (V m c main_v3 : S1x105.Idx → Elt Ideal .f32) (ix2 (0 : Fin 1) j) := by
  unfold iblk
  rw [View.read_apply]
  show V m c main_v3 (((cfg0.win 2).blk t).view.emb (ix2 (0 : Fin 1) j)) = _
  refine congrArg (V m c main_v3 : S1x105.Idx → Elt Ideal .f32) (funext fun a => Fin.ext ?_)
  obtain ⟨-, -, -, -, e0, e1, -⟩ := idx_facts t
  match a with
  | ⟨0, _⟩ => show win0_2.index t (0 : Fin 2) * 1 + 1 * 0 = 0; rw [e0]
  | ⟨1, _⟩ => show win0_2.index t (1 : Fin 2) * 105 + 1 * j.val = j.val; rw [e1]; omega

/-- A fused weight column below 21 is the class weights' column. -/
theorem wts_cls (c : Dev nD) (t : Fin cfg0.N) (k : Fin 1024) (q : Fin 21) (j : Fin 105) (hj : j.val = q.val) :
    (iblk m c 1 t : S1024x105.Idx → Elt Ideal .bf16) (ix2 k j) = wCls m c (ix2 k q) := by
  rw [wts_blk m c t k j, Entry.weights m c]
  exact (truncf_apply (ψ := .bf16) _ bitsLt_bf16_f32 (ix2 k j)).trans (Cert.Fused.weights_left _ _ _ k q j hj)

/-- A fused weight column from 21 on is the box weights' column 21 to the left. -/
theorem wts_box (c : Dev nD) (t : Fin cfg0.N) (k : Fin 1024) (q : Fin 84) (j : Fin 105) (hj : j.val = 21 + q.val) :
    (iblk m c 1 t : S1024x105.Idx → Elt Ideal .bf16) (ix2 k j) = wBox m c (ix2 k q) := by
  rw [wts_blk m c t k j, Entry.weights m c]
  exact (truncf_apply (ψ := .bf16) _ bitsLt_bf16_f32 (ix2 k j)).trans (Cert.Fused.weights_right _ _ _ k q j hj)

/-- A fused bias entry below 21 is the class bias's entry. -/
theorem bias_cls (c : Dev nD) (t : Fin cfg0.N) (q : Fin 21) (j : Fin 105) (hj : j.val = q.val) :
    (iblk m c 2 t : S1x105.Idx → Elt Ideal .f32) (ix2 (0 : Fin 1) j) = bCls m c (ix1 q) := by
  rw [bias_blk m c t j, Entry.bias m c]
  exact Cert.Fused.bias_left _ _ _ _ q j hj

/-- A fused bias entry from 21 on is the box bias's entry 21 to the left. -/
theorem bias_box (c : Dev nD) (t : Fin cfg0.N) (q : Fin 84) (j : Fin 105) (hj : j.val = 21 + q.val) :
    (iblk m c 2 t : S1x105.Idx → Elt Ideal .f32) (ix2 (0 : Fin 1) j) = bBox m c (ix1 q) := by
  rw [bias_blk m c t j, Entry.bias m c]
  exact Cert.Fused.bias_right _ _ _ _ q j hj

/-! ## What one grid point computes -/

/-- Entry (p, q) of point t's class block is the class head at row 2048·t + p. -/
theorem cls_point (c : Dev nD) (t : Fin cfg0.N) (p : Fin 2048) (q : Fin 21) (r : Fin 131072)
    (hr : r.val = t.val * 2048 + p.val) :
    k0_pay2 (F := Ideal) (iblk m c 0 t) (iblk m c 1 t) (iblk m c 2 t) (ix2 p q)
      = Cert.Heads.clsAt (feats m c) (wCls m c) (bCls m c) r q := by
  refine (Payload.cls_apply (iblk m c 0 t) (iblk m c 1 t) (iblk m c 2 t) p q
    ⟨q.val, Nat.lt_of_lt_of_le q.isLt (by decide)⟩ rfl).trans ?_
  unfold Cert.Heads.clsAt
  refine congrArg₂ (· + ·) (Finset.sum_congr rfl fun k _ => congrArg₂ (· * ·) ?_ ?_) ?_
  · exact feat_blk m c t p k r hr
  · exact wts_cls m c t k q _ rfl
  · exact bias_cls m c t q _ rfl

/-- Entry (p, q) of point t's box block is the box head at row 2048·t + p. -/
theorem box_point (c : Dev nD) (t : Fin cfg0.N) (p : Fin 2048) (q : Fin 84) (r : Fin 131072)
    (hr : r.val = t.val * 2048 + p.val) :
    k0_pay3 (F := Ideal) (iblk m c 0 t) (iblk m c 1 t) (iblk m c 2 t) (ix2 p q)
      = Cert.Heads.boxAt (feats m c) (wBox m c) (bBox m c) r q := by
  refine (Payload.box_apply (iblk m c 0 t) (iblk m c 1 t) (iblk m c 2 t) p q
    ⟨21 + q.val, by have := q.isLt; omega⟩ rfl).trans ?_
  unfold Cert.Heads.boxAt
  refine congrArg₂ (· + ·) (Finset.sum_congr rfl fun k _ => congrArg₂ (· * ·) ?_ ?_) ?_
  · exact feat_blk m c t p k r hr
  · exact wts_box m c t k q _ rfl
  · exact bias_box m c t q _ rfl

/-! ## The class array -/

/-- What point t writes back to the class array is block t of the class head. -/
theorem flushed_cls (c : Dev nD) (t : Fin cfg0.N) :
    (dats m 0 c).flushed 3 t
      = ((cfg0.win 3).blk t).view.read (Elt Ideal) (Cert.Heads.cls (feats m c) (wCls m c) (bCls m c)) := by
  show (cfg0.win 3).cut (grid0.coords t) ((dats m 0 c).after 3 t) = _
  rw [after0_3]
  unfold out0_3
  rw [View.canon_unit_zero hz]
  simp only [View.ld_unit_zero (S := S2048x1024) hz, View.ld_unit_zero (S := S1024x105) hz,
    View.ld_unit_zero (S := S1x105) hz]
  funext y
  have hy0 : (y 0).val < 2048 := (y 0).isLt
  have hy1 : (y 1).val < 21 := (y 1).isLt
  have hN := point_lt t
  obtain ⟨-, -, -, -, -, -, e0, e1, -⟩ := idx_facts t
  have hx : win0_3.xinj (grid0.coords t) y = ix2 (⟨(y 0).val, hy0⟩ : Fin 2048) (⟨(y 1).val, hy1⟩ : Fin 21) :=
    funext fun a => by
      match a with
      | ⟨0, _⟩ => rfl
      | ⟨1, _⟩ => rfl
  have hi : ((cfg0.win 3).blk t).view.emb y
      = ix2 (⟨t.val * 2048 + (y 0).val, by omega⟩ : Fin 131072) (⟨(y 1).val, hy1⟩ : Fin 21) :=
    funext fun a => Fin.ext (by
      match a with
      | ⟨0, _⟩ => show win0_3.index t (0 : Fin 2) * 2048 + 1 * (y 0).val = t.val * 2048 + (y 0).val; rw [e0]; omega
      | ⟨1, _⟩ => show win0_3.index t (1 : Fin 2) * 21 + 1 * (y 1).val = (y 1).val; rw [e1]; omega)
  show k0_pay2 (F := Ideal) (iblk m c 0 t) (iblk m c 1 t) (iblk m c 2 t) (win0_3.xinj (grid0.coords t) y)
    = Cert.Heads.cls (feats m c) (wCls m c) (bCls m c) (((cfg0.win 3).blk t).view.emb y)
  rw [hx, hi, Cert.Heads.cls_apply]
  exact cls_point m c t _ _ _ rfl

/-- An index of the class array is in point t's block iff each coordinate is in the block's range on its axis. -/
theorem mem_blk_cls (t : Fin cfg0.N) (i : S131072x21.Idx) :
    i ∈ ((cfg0.win 3).blk t).view.set ↔ ∀ a : Fin 2, win0_3.index t a * S2048x21.size a ≤ (i a).val
      ∧ (i a).val < win0_3.index t a * S2048x21.size a + S2048x21.size a := by
  show i ∈ ((View.whole main_v4_0).slice (win0_3.rect t)).set ↔ _
  rw [View.set_slice_whole, Rect.mem_set_unit]
  exact Iff.rfl

/-- Every row of the class array is in the block of the point its row number divided by 2048 names. -/
theorem cover_cls (i : S131072x21.Idx) :
    ∃ t : Fin cfg0.N, (cfg0.win 3).flush t = true ∧ i ∈ ((cfg0.win 3).blk t).view.set := by
  have h0 : (i 0).val < 131072 := (i 0).isLt
  have h1 : (i 1).val < 21 := (i 1).isLt
  obtain ⟨t, ht⟩ : ∃ t : Fin cfg0.N, t.val = (i 0).val / 2048 :=
    ⟨⟨(i 0).val / 2048, Nat.lt_of_lt_of_eq (by omega : (i 0).val / 2048 < 64) N_0.symm⟩, rfl⟩
  refine ⟨t, flush0_3 t, ?_⟩
  rw [mem_blk_cls]
  obtain ⟨-, -, -, -, -, -, e0, e1, -⟩ := idx_facts t
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 21 ≤ (i 1).val ∧ (i 1).val < win0_3.index t (1 : Fin 2) * 21 + 21
    rw [e1]; omega

/-- The class array after the run is the class head. -/
theorem final_cls (c : Dev nD) :
    (dats m 0 c).arrAt 3 cfg0.N = Cert.Heads.cls (feats m c) (wCls m c) (bCls m c) :=
  (dats m 0 c).arrAt_eq_of_cover 3 (Cert.Heads.cls (feats m c) (wCls m c) (bCls m c))
    (fun t _ => flushed_cls m c t) cover_cls

/-! ## The box array -/

/-- What point t writes back to the box array is block t of the box head. -/
theorem flushed_box (c : Dev nD) (t : Fin cfg0.N) :
    (dats m 0 c).flushed 4 t
      = ((cfg0.win 4).blk t).view.read (Elt Ideal) (Cert.Heads.box (feats m c) (wBox m c) (bBox m c)) := by
  show (cfg0.win 4).cut (grid0.coords t) ((dats m 0 c).after 4 t) = _
  rw [after0_4]
  unfold out0_4
  rw [View.canon_unit_zero hz]
  simp only [View.ld_unit_zero (S := S2048x1024) hz, View.ld_unit_zero (S := S1024x105) hz,
    View.ld_unit_zero (S := S1x105) hz]
  funext y
  have hy0 : (y 0).val < 2048 := (y 0).isLt
  have hy1 : (y 1).val < 84 := (y 1).isLt
  have hN := point_lt t
  obtain ⟨-, -, -, -, -, -, -, -, e0, e1⟩ := idx_facts t
  have hx : win0_4.xinj (grid0.coords t) y = ix2 (⟨(y 0).val, hy0⟩ : Fin 2048) (⟨(y 1).val, hy1⟩ : Fin 84) :=
    funext fun a => by
      match a with
      | ⟨0, _⟩ => rfl
      | ⟨1, _⟩ => rfl
  have hi : ((cfg0.win 4).blk t).view.emb y
      = ix2 (⟨t.val * 2048 + (y 0).val, by omega⟩ : Fin 131072) (⟨(y 1).val, hy1⟩ : Fin 84) :=
    funext fun a => Fin.ext (by
      match a with
      | ⟨0, _⟩ => show win0_4.index t (0 : Fin 2) * 2048 + 1 * (y 0).val = t.val * 2048 + (y 0).val; rw [e0]; omega
      | ⟨1, _⟩ => show win0_4.index t (1 : Fin 2) * 84 + 1 * (y 1).val = (y 1).val; rw [e1]; omega)
  show k0_pay3 (F := Ideal) (iblk m c 0 t) (iblk m c 1 t) (iblk m c 2 t) (win0_4.xinj (grid0.coords t) y)
    = Cert.Heads.box (feats m c) (wBox m c) (bBox m c) (((cfg0.win 4).blk t).view.emb y)
  rw [hx, hi, Cert.Heads.box_apply]
  exact box_point m c t _ _ _ rfl

/-- An index of the box array is in point t's block iff each coordinate is in the block's range on its axis. -/
theorem mem_blk_box (t : Fin cfg0.N) (i : S131072x84.Idx) :
    i ∈ ((cfg0.win 4).blk t).view.set ↔ ∀ a : Fin 2, win0_4.index t a * S2048x84.size a ≤ (i a).val
      ∧ (i a).val < win0_4.index t a * S2048x84.size a + S2048x84.size a := by
  show i ∈ ((View.whole main_v4_1).slice (win0_4.rect t)).set ↔ _
  rw [View.set_slice_whole, Rect.mem_set_unit]
  exact Iff.rfl

/-- Every row of the box array is in the block of the point its row number divided by 2048 names. -/
theorem cover_box (i : S131072x84.Idx) :
    ∃ t : Fin cfg0.N, (cfg0.win 4).flush t = true ∧ i ∈ ((cfg0.win 4).blk t).view.set := by
  have h0 : (i 0).val < 131072 := (i 0).isLt
  have h1 : (i 1).val < 84 := (i 1).isLt
  obtain ⟨t, ht⟩ : ∃ t : Fin cfg0.N, t.val = (i 0).val / 2048 :=
    ⟨⟨(i 0).val / 2048, Nat.lt_of_lt_of_eq (by omega : (i 0).val / 2048 < 64) N_0.symm⟩, rfl⟩
  refine ⟨t, flush0_4 t, ?_⟩
  rw [mem_blk_box]
  obtain ⟨-, -, -, -, -, -, -, -, e0, e1⟩ := idx_facts t
  intro a
  match a with
  | ⟨0, _⟩ =>
    show win0_4.index t (0 : Fin 2) * 2048 ≤ (i 0).val ∧ (i 0).val < win0_4.index t (0 : Fin 2) * 2048 + 2048
    rw [e0, ht]; omega
  | ⟨1, _⟩ =>
    show win0_4.index t (1 : Fin 2) * 84 ≤ (i 1).val ∧ (i 1).val < win0_4.index t (1 : Fin 2) * 84 + 84
    rw [e1]; omega

/-- The box array after the run is the box head. -/
theorem final_box (c : Dev nD) :
    (dats m 0 c).arrAt 4 cfg0.N = Cert.Heads.box (feats m c) (wBox m c) (bBox m c) :=
  (dats m 0 c).arrAt_eq_of_cover 4 (Cert.Heads.box (feats m c) (wBox m c) (bBox m c))
    (fun t _ => flushed_box m c t) cover_box

end Cert.KernelIdeal.Blocks

end
-- ==== Proof.KernelRun.lean ====
/-
  The kernel's run, with its two results named as the heads.

  After the region the class array is the first result as it stands, and the host re-lays the box array
  [131072 × 84] as [131072 × 21 × 4] for the second. With the two arrays known to hold the heads, every execution of
  the kernel's program ends with the class result at the class head and the box result at the box head re-laid, of the
  argument arrays, and with those arrays unchanged.
-/
import proofs.«168700_j50964081935328_2_alg».proof.Proof.Gen.KernelIdeal.Frame
import proofs.«168700_j50964081935328_2_alg».proof.Proof.Blocks
import Idealize.ShloMosaic.Lib.StableHlo.Run
import Idealize.ShloMosaic.PureOps.Ideal

noncomputable section

namespace Cert.KernelIdeal.Run

open Cert.KernelIdeal Cert.KernelIdeal.Gen Cert.KernelIdeal.Blocks
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- What the host's re-laying after the region leaves in the second result: the box head re-laid. -/
theorem tail_boxes (c : Dev nD) :
    Pipeline.afterTail₀ cfgs (dats m) 0 (V0 m) [hostOps1] c main_v5
      = Cert.Heads.boxes (feats m c) (wBox m c) (bBox m c) shapeCasts_S131072x84_S131072x21x4 := by
  unfold Pipeline.afterTail₀
  show StableHlo.after hostOps1 _ (Proc.devRef .tc main_v5) = _
  after_results
  rw [(Pipeline.withArrays_arr spec0 launch0.win.arr_inj c _ _ 4).trans (final_box m c)]
  rfl

/-- The kernel's run: the class result is the class head and the box result the box head re-laid, of the argument
    arrays; the arguments end unchanged. -/
theorem run : θ_run defs (onTc (τ := τ) (main (F := Ideal))) ⟨m, fun _ => 0, ρ⟩ fun r => ∀ c : Dev nD,
      r.2.mem ((c.tc : Thread nD τ).loc main_v4_0) = Cert.Heads.cls (feats m c) (wCls m c) (bCls m c)
      ∧ r.2.mem ((c.tc : Thread nD τ).loc main_v5)
          = Cert.Heads.boxes (feats m c) (wBox m c) (bBox m c) shapeCasts_S131072x84_S131072x21x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).1 3).trans (final_cls m c),
       ((h c).2 main_v5 (Pipeline.mem_restRefs_of main_v5 (by decide) (by decide))).trans (tail_boxes m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.Run

end
-- ==== Proof.RefHeads.lean ====
/-
  The reference computes the two heads.

  Its class result is  X · W_cls + b_cls  with the bias broadcast down the rows, and its box result  X · W_box + b_box
  re-laid as [131072 × 21 × 4]. Read entry by entry, the host's product is the plain sum over the 1024 feature
  coordinates and the broadcast bias at (r, j) is b[j]: exactly the heads' defining formula.
-/
import proofs.«168700_j50964081935328_2_alg».proof.Proof.Gen.ReferenceIdeal.Read
import proofs.«168700_j50964081935328_2_alg».proof.Proof.Heads

noncomputable section

open scoped BigOperators

namespace Cert.ReferenceIdeal.RefHeads

open Cert.ReferenceIdeal Cert.ReferenceIdeal.Gen Cert.ReferenceIdeal.Read Idealize.ShloMosaic Idealize.ShloMosaic.ValueIdx

/-- The reference's class result is the class head. -/
theorem cls_eq (X : FVec Ideal S131072x1024 .f32) (W : FVec Ideal S1024x21 .f32) (b : FVec Ideal S21 .f32) :
    val_main_v3 (F := Ideal) X W b = Cert.Heads.cls X W b := by
  funext i
  rw [val_main_v3_apply, val_main_v0_apply, val_main_v2_apply, val_main_v1_apply]
  have el : ∀ k : Fin 1024, lidx_main_v0 i k = ix2 (⟨(i 0).val, (i 0).isLt⟩ : Fin 131072) k := fun k => funext fun a => by
    match a with
    | ⟨0, _⟩ => rfl
    | ⟨1, _⟩ => rfl
  have er : ∀ k : Fin 1024, ridx_main_v0 i k = ix2 k (⟨(i 1).val, (i 1).isLt⟩ : Fin 21) := fun k => funext fun a => by
    match a with
    | ⟨0, _⟩ => rfl
    | ⟨1, _⟩ => rfl
  have eb : idx_main_v1 (idx_main_v2 i) = ix1 (⟨(i 1).val, (i 1).isLt⟩ : Fin 21) := funext fun a => by
    match a with
    | ⟨0, _⟩ => rfl
  simp only [el, er, eb]
  rfl

/-- The reference's box result before the re-laying is the box head. -/
theorem box_eq (X : FVec Ideal S131072x1024 .f32) (W : FVec Ideal S1024x84 .f32) (b : FVec Ideal S84 .f32) :
    val_main_v7 (F := Ideal) X W b = Cert.Heads.box X W b := by
  funext i
  rw [val_main_v7_apply, val_main_v4_apply, val_main_v6_apply, val_main_v5_apply]
  have el : ∀ k : Fin 1024, lidx_main_v4 i k = ix2 (⟨(i 0).val, (i 0).isLt⟩ : Fin 131072) k := fun k => funext fun a => by
    match a with
    | ⟨0, _⟩ => rfl
    | ⟨1, _⟩ => rfl
  have er : ∀ k : Fin 1024, ridx_main_v4 i k = ix2 k (⟨(i 1).val, (i 1).isLt⟩ : Fin 84) := fun k => funext fun a => by
    match a with
    | ⟨0, _⟩ => rfl
    | ⟨1, _⟩ => rfl
  have eb : idx_main_v5 (idx_main_v6 i) = ix1 (⟨(i 1).val, (i 1).isLt⟩ : Fin 84) := funext fun a => by
    match a with
    | ⟨0, _⟩ => rfl
  simp only [el, er, eb]
  rfl

/-- The reference's box result is the box head re-laid. -/
theorem boxes_eq (X : FVec Ideal S131072x1024 .f32) (W : FVec Ideal S1024x84 .f32) (b : FVec Ideal S84 .f32) :
    val_main_v8 (F := Ideal) X W b = Cert.Heads.boxes X W b shapeCasts_S131072x84_S131072x21x4 := by
  unfold val_main_v8 Cert.Heads.boxes
  rw [box_eq]

end Cert.ReferenceIdeal.RefHeads

end
-- ==== Proof.RefRun.lean ====
/-
  The reference's run, with its two results named as the heads.

  Every execution of the reference ends with the class result holding the class head and the box result the box head
  re-laid, of the argument arrays it was launched with, and with those arrays unchanged. The argument arrays are named
  here by plain arrays X, W_cls, b_cls, W_box, b_box together with the equations saying the launch memory holds them,
  so that the same statement can be read against arrays that another program was launched with.
-/
import proofs.«168700_j50964081935328_2_alg».proof.Proof.Gen.ReferenceIdeal.Run
import proofs.«168700_j50964081935328_2_alg».proof.Proof.Gen.ReferenceIdeal.Read
import proofs.«168700_j50964081935328_2_alg».proof.Proof.RefHeads

noncomputable section

namespace Cert.ReferenceIdeal.RefRun

open Cert.ReferenceIdeal Cert.ReferenceIdeal.Gen Idealize.ShloMosaic Idealize.ShloMosaic.TcCoe Idealize.SL.Sem

/-- The reference's run: the class result is the class head and the box result the box head re-laid, of the arrays
    the memory was launched with; the arguments end unchanged. -/
theorem run (m : (ℓ : Loc nD τ sig) → Buf (Elt Ideal) ℓ) (ρ : Dev nD → PrngReg)
    (X : Dev nD → FVec Ideal S131072x1024 .f32) (Wc : Dev nD → FVec Ideal S1024x21 .f32)
    (bc : Dev nD → FVec Ideal S21 .f32) (Wt : Dev nD → FVec Ideal S1024x84 .f32) (bt : Dev nD → FVec Ideal S84 .f32)
    (h0 : ∀ c : Dev nD, m ((c.tc : Thread nD τ).loc main_arg0) = X c)
    (h1 : ∀ c : Dev nD, m ((c.tc : Thread nD τ).loc main_arg1) = Wc c)
    (h2 : ∀ c : Dev nD, m ((c.tc : Thread nD τ).loc main_arg2) = bc c)
    (h3 : ∀ c : Dev nD, m ((c.tc : Thread nD τ).loc main_arg3) = Wt c)
    (h4 : ∀ c : Dev nD, m ((c.tc : Thread nD τ).loc main_arg4) = bt c) :
    θ_run defs (onTc (τ := τ) (main (F := Ideal))) ⟨m, fun _ => 0, ρ⟩ fun r => ∀ c : Dev nD,
      r.2.mem ((c.tc : Thread nD τ).loc main_v3) = Cert.Heads.cls (X c) (Wc c) (bc c)
      ∧ r.2.mem ((c.tc : Thread nD τ).loc main_v8)
          = Cert.Heads.boxes (X c) (Wt c) (bt c) shapeCasts_S131072x84_S131072x21x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨by rw [(h c).1, Read.val_main_v3_eq, RefHeads.cls_eq, h0 c, h1 c, h2 c],
       by rw [(h c).2.1, Read.val_main_v8_eq, RefHeads.boxes_eq, h0 c, h3 c, h4 c],
       (h c).2.2⟩)
    (Cert.ReferenceIdeal.Value.run (F := Ideal) m ρ)

end Cert.ReferenceIdeal.RefRun

end
-- ==== Proof.lean ====
/-
  Two linear heads on a bank of region features: a fused, row-blocked kernel against the two plain products.

  The reference computes  X · W_cls + b_cls  ([131072 × 21]) and  X · W_box + b_box  ([131072 × 84], returned re-laid as
  [131072 × 21 × 4]) for features X [131072 × 1024].

  The kernel lays the two weight matrices side by side into one [1024 × 105] matrix and the two biases end to end into
  one row of 105, and walks the features in 64 blocks of 2048 rows. At each block it forms ONE product of the block by
  the fused weights, adds the fused bias row to every row, and writes the first 21 columns of the result to the class
  array and the remaining 84 to the box array; afterwards the host re-lays the box array as [131072 × 21 × 4].

  Over the extended reals the two agree entry by entry, and the reason is only bookkeeping of indices: column j of the
  fused weights IS column j of the class weights for j < 21 and column j − 21 of the box weights from there on, and the
  same for the bias, so entry (r, j) of either side is
      Σ_k X[r, k] · W[k, j]  +  b[j]
  with the same 1024 terms in the same order. Narrowing to the 16-bit format is the identity on the extended reals, a
  product into a zero accumulator is the bare sum, and the row blocks tile the rows. No law of arithmetic that could
  fail at an infinity is used, so the finiteness of the inputs is never opened.

  The modules: Heads (the two heads as functions of the arguments), RefHeads and RefRun (the reference computes them),
  Fused (the fused operands at an entry), LibPlainDot (a product over one contracted axis at an entry as the plain
  sum), Payload (the kernel's body at an entry), Entry (the fused buffers as the region finds them), Blocks (from the
  grid's blocks to the two arrays), KernelRun (the kernel's run).
-/
import proofs.«168700_j50964081935328_2_alg».proof.Defs
import proofs.«168700_j50964081935328_2_alg».proof.Proof.Gen.Kernel
import proofs.«168700_j50964081935328_2_alg».proof.Proof.Gen.Kernel.Skeleton
import proofs.«168700_j50964081935328_2_alg».proof.Proof.Gen.Kernel.Launch
import proofs.«168700_j50964081935328_2_alg».proof.Proof.Gen.Kernel.Points
import proofs.«168700_j50964081935328_2_alg».proof.Proof.Gen.Kernel.Frame
import proofs.«168700_j50964081935328_2_alg».proof.Proof.Gen.KernelIdeal
import proofs.«168700_j50964081935328_2_alg».proof.Proof.Gen.KernelIdeal.Skeleton
import proofs.«168700_j50964081935328_2_alg».proof.Proof.Gen.KernelIdeal.Launch
import proofs.«168700_j50964081935328_2_alg».proof.Proof.Gen.KernelIdeal.Points
import proofs.«168700_j50964081935328_2_alg».proof.Proof.Gen.KernelIdeal.Frame
import proofs.«168700_j50964081935328_2_alg».proof.Proof.Gen.ReferenceIdeal
import proofs.«168700_j50964081935328_2_alg».proof.Proof.Gen.ReferenceIdeal.Run
import proofs.«168700_j50964081935328_2_alg».proof.Proof.Gen.ReferenceIdeal.Read
import proofs.«168700_j50964081935328_2_alg».proof.Proof.Gen.Pre_finite_inputs
import proofs.«168700_j50964081935328_2_alg».proof.Proof.KernelRun
import proofs.«168700_j50964081935328_2_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run with the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Nothing of the kernel was rewritten for the reading over the extended reals. -/
theorem preserves : Cert.preserves_Kernel_KernelIdeal := trivial

/-- Both programs end with the class head and the box head re-laid, of the same argument arrays: the kernel's run
    names them of its own launch memory, the reference's run of arrays its memory is launched with, and the two
    memories agree on the arguments. -/
theorem algebraic : Cert.algebraic_KernelIdeal_ReferenceIdeal := fun m ρ m' ρ' _ hagree =>
  ⟨fun c => Cert.Heads.cls (Cert.KernelIdeal.Blocks.feats m c) (Cert.KernelIdeal.Blocks.wCls m c)
      (Cert.KernelIdeal.Blocks.bCls m c),
   fun c => Cert.Heads.boxes (Cert.KernelIdeal.Blocks.feats m c) (Cert.KernelIdeal.Blocks.wBox m c)
      (Cert.KernelIdeal.Blocks.bBox m c) Cert.KernelIdeal.Gen.shapeCasts_S131072x84_S131072x21x4,
   Cert.KernelIdeal.Run.run m ρ,
   Cert.ReferenceIdeal.RefRun.run m' ρ'
     (fun c => Cert.KernelIdeal.Blocks.feats m c) (fun c => Cert.KernelIdeal.Blocks.wCls m c)
     (fun c => Cert.KernelIdeal.Blocks.bCls m c) (fun c => Cert.KernelIdeal.Blocks.wBox m c)
     (fun c => Cert.KernelIdeal.Blocks.bBox m c)
     (fun c => (hagree c).1) (fun c => (hagree c).2.1) (fun c => (hagree c).2.2.1)
     (fun c => (hagree c).2.2.2.1) (fun c => (hagree c).2.2.2.2)⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
